-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S2x8000000 : Shape := ⟨2, ![2, 8000000]⟩
abbrev S8000000 : Shape := ⟨1, ![8000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S8000000 : S_.BroadcastsInDim S8000000 (![] : Fin 0 → Fin S8000000.rank)
  reducesTo_S8000000_S_d0 : S8000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S32x64 .f32) (main_arg8 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_v33

def fn {F : FTy → Type} [FloatOps F] (main_arg0 : FVec F S1000000x64 .f32) (main_arg1 : IVec S2x8000000 32) (main_arg2 : FVec F S8000000 .f32) (main_arg3 : FVec F S64x64 .f32) (main_arg4 : FVec F S64 .f32) (main_arg5 : FVec F S64x64 .f32) (main_arg6 : FVec F S64 .f32) (main_arg7 : FVec F S32x64 .f32) (main_arg8 : FVec F S32 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S8000000 .f32 := Host.absf main_arg2
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S1000000x64 : Shape := ⟨2, ![1000000, 64]⟩
abbrev S2x8000000 : Shape := ⟨2, ![2, 8000000]⟩
abbrev S8000000 : Shape := ⟨1, ![8000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S500000x128 : Shape := ⟨2, ![500000, 128]⟩
abbrev S_ : Shape := ⟨0, ![]⟩
abbrev S64x128 : Shape := ⟨2, ![64, 128]⟩
abbrev S128x128 : Shape := ⟨2, ![128, 128]⟩
abbrev S64x32 : Shape := ⟨2, ![64, 32]⟩
abbrev S128x64 : Shape := ⟨2, ![128, 64]⟩
abbrev S128 : Shape := ⟨1, ![128]⟩
abbrev S500000x64 : Shape := ⟨2, ![500000, 64]⟩
abbrev S5000x128 : Shape := ⟨2, ![5000, 128]⟩
abbrev S5000x64 : Shape := ⟨2, ![5000, 64]⟩
abbrev S1x128 : Shape := ⟨2, ![1, 128]⟩
abbrev S1x64 : Shape := ⟨2, ![1, 64]⟩
abbrev S1000000x32 : Shape := ⟨2, ![1000000, 32]⟩

abbrev nBuf : Space → Nat
  | .hbm => 36
  | .vmem => 10
  | .smem => 0
  | _ => 0

abbrev bufTy : (tb : Table) → Fin (tcTables nBuf tb) → BufTy
  | .hbm, ⟨0, _⟩ => ⟨S1000000x64, .f32⟩
  | .hbm, ⟨1, _⟩ => ⟨S2x8000000, .i32⟩
  | .hbm, ⟨2, _⟩ => ⟨S8000000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S500000x128, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x128, .f32⟩
  | .hbm, ⟨14, _⟩ => ⟨S64x128, .f32⟩
  | .hbm, ⟨15, _⟩ => ⟨S128x128, .f32⟩
  | .hbm, ⟨16, _⟩ => ⟨S128x128, .bf16⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x128, .f32⟩
  | .hbm, ⟨21, _⟩ => ⟨S64x128, .f32⟩
  | .hbm, ⟨22, _⟩ => ⟨S128x128, .f32⟩
  | .hbm, ⟨23, _⟩ => ⟨S128x128, .bf16⟩
  | .hbm, ⟨24, _⟩ => ⟨S64x32, .f32⟩
  | .hbm, ⟨25, _⟩ => ⟨S_, .f32⟩
  | .hbm, ⟨26, _⟩ => ⟨S64x32, .f32⟩
  | .hbm, ⟨27, _⟩ => ⟨S64x64, .f32⟩
  | .hbm, ⟨28, _⟩ => ⟨S64x64, .f32⟩
  | .hbm, ⟨29, _⟩ => ⟨S128x64, .f32⟩
  | .hbm, ⟨30, _⟩ => ⟨S128x64, .bf16⟩
  | .hbm, ⟨31, _⟩ => ⟨S128, .f32⟩
  | .hbm, ⟨32, _⟩ => ⟨S128, .f32⟩
  | .hbm, ⟨33, _⟩ => ⟨S64, .f32⟩
  | .hbm, ⟨34, _⟩ => ⟨S500000x64, .f32⟩
  | .hbm, ⟨35, _⟩ => ⟨S1000000x32, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S128x64, .bf16⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1000000x64_S500000x128 : S1000000x64.ShapeCasts S500000x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bitsLt_bf16_f32 : FTy.bits .bf16 < FTy.bits .f32
  transposes_S32x64_S64x32_1_0 : S32x64.Transposes [1, 0] S64x32
  bcast_S_S64x32 : S_.BroadcastsInDim S64x32 (![] : Fin 0 → Fin S64x32.rank)
  concatenates_S64x32_S64x32_S64x64_d1 : Shape.Concatenates [S64x32, S64x32] S64x64 1
  concatenates_S64x64_S64x64_S128x64_d0 : Shape.Concatenates [S64x64, S64x64] S128x64 0
  concatenates_S64_S64_S128_d0 : Shape.Concatenates [S64, S64] S128 0
  concatenates_S32_S32_S64_d0 : Shape.Concatenates [S32, S32] S64 0
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S500000x64_S1000000x32 : S500000x64.ShapeCasts S1000000x32
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S500000x64.size a
  hwx0_7 : ∀ i : grid0.Coords, EltTy.bits .f32 = 32 ∨ (Rect.block (s := S500000x64) S5000x64.size (cc0_transform_7 i) (hinb0_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1000000x64 : Shape := ⟨2, ![1000000, 64]⟩
abbrev S2x8000000 : Shape := ⟨2, ![2, 8000000]⟩
abbrev S8000000 : Shape := ⟨1, ![8000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x64 : Shape := ⟨2, ![1, 64]⟩
abbrev S_ : Shape := ⟨0, ![]⟩
abbrev S64x32 : Shape := ⟨2, ![64, 32]⟩
abbrev S1000000x32 : Shape := ⟨2, ![1000000, 32]⟩
abbrev S1x32 : Shape := ⟨2, ![1, 32]⟩

abbrev nBuf : Space → Nat
  | .hbm => 30
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S2x8000000, .i32⟩
  | .hbm, ⟨2, _⟩ => ⟨S8000000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S64x64, .f32⟩
  | .hbm, ⟨10, _⟩ => ⟨S1000000x64, .f32⟩
  | .hbm, ⟨11, _⟩ => ⟨S1x64, .f32⟩
  | .hbm, ⟨12, _⟩ => ⟨S1000000x64, .f32⟩
  | .hbm, ⟨13, _⟩ => ⟨S1000000x64, .f32⟩
  | .hbm, ⟨14, _⟩ => ⟨S_, .f32⟩
  | .hbm, ⟨15, _⟩ => ⟨S1000000x64, .f32⟩
  | .hbm, ⟨16, _⟩ => ⟨S1000000x64, .f32⟩
  | .hbm, ⟨17, _⟩ => ⟨S64x64, .f32⟩
  | .hbm, ⟨18, _⟩ => ⟨S1000000x64, .f32⟩
  | .hbm, ⟨19, _⟩ => ⟨S1x64, .f32⟩
  | .hbm, ⟨20, _⟩ => ⟨S1000000x64, .f32⟩
  | .hbm, ⟨21, _⟩ => ⟨S1000000x64, .f32⟩
  | .hbm, ⟨22, _⟩ => ⟨S_, .f32⟩
  | .hbm, ⟨23, _⟩ => ⟨S1000000x64, .f32⟩
  | .hbm, ⟨24, _⟩ => ⟨S1000000x64, .f32⟩
  | .hbm, ⟨25, _⟩ => ⟨S64x32, .f32⟩
  | .hbm, ⟨26, _⟩ => ⟨S1000000x32, .f32⟩
  | .hbm, ⟨27, _⟩ => ⟨S1x32, .f32⟩
  | .hbm, ⟨28, _⟩ => ⟨S1000000x32, .f32⟩
  | .hbm, ⟨29, _⟩ => ⟨S1000000x32, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  transposes_S32x64_S64x32_1_0 : S32x64.Transposes [1, 0] S64x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  dot_S1000000x64_S64x64_S1000000x64_1_0_0_1_n_n_wf : DotDims.WF S1000000x64 S64x64 S1000000x64 [1] [0] [0] [1] [] []
  dot_S1000000x64_S64x32_S1000000x32_1_0_0_1_n_n_wf : DotDims.WF S1000000x64 S64x32 S1000000x32 [1] [0] [0] [1] [] []

variable [Facts₀]

def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf

class Facts : Prop extends Facts₀ where

variable [Facts]
-- ==== Proof.LibPackedPair.lean ====
/-
  Two rows packed side by side: positions, sums, concatenations and reshapes.

  Two rows of length `K` laid side by side make one row of length `K2 = K + K`; entry `k` of half `s` sits at position
  `s * K + k` (`pk`). Reading an `M2 × K` array (`M2 = M + M`) in row-major order as an `M × K2` array packs rows
  `2 p` and `2 p + 1` into row `p`: row `2 p + s` (`il`) becomes half `s` of row `p`.

  * `exists_pk`, `exists_il`: every position of a packed row is `pk s k`, every row number below `M2` is `il p s`;
  * `sum_pk`: a sum over a packed row is the sum over its first half plus the sum over its second half;
  * `concat_rows_pk0/1`, `concat_cols_pk0/1`, `concat_vec_pk0/1`: two arrays of one shape joined along the rows, along
    the columns, or end to end as vectors, read at a packed position of the joined axis, give the piece `s` at `k`;
  * `reshape_pack`, `reshape_unpack`: the row-major reshape `M2 × K → M × K2` at `(p, pk s k)` reads the operand at
    `(il p s, k)`, and the reshape `M × K2 → M2 × K` at `(il p s, k)` reads the operand at `(p, pk s k)`.

  Everything is generic in the extents and in the element type (the sum in any commutative additive monoid).
-/
import Idealize.ShloMosaic.Lib.Pipeline.Value
import Idealize.ShloMosaic.Lib.ValueIdx

open Idealize.ShloMosaic Idealize.ShloMosaic.ValueIdx
open scoped BigOperators

namespace Cert.LibPackedPair

/-- Where entry `k` of half `s` sits in a row made of two halves of length `K`: at `s * K + k`. -/
def pk {K K2 : ℕ} (hK : K + K = K2) (s : Fin 2) (k : Fin K) : Fin K2 :=
  ⟨s.val * K + k.val, by
    have hs : s.val * K ≤ 1 * K := Nat.mul_le_mul_right K (by omega)
    have := k.isLt
    omega⟩

theorem pk_val {K K2 : ℕ} (hK : K + K = K2) (s : Fin 2) (k : Fin K) : (pk hK s k).val = s.val * K + k.val := rfl
theorem pk_zero_val {K K2 : ℕ} (hK : K + K = K2) (k : Fin K) : (pk hK 0 k).val = k.val := by simp [pk]
theorem pk_one_val {K K2 : ℕ} (hK : K + K = K2) (k : Fin K) : (pk hK 1 k).val = K + k.val := by simp [pk]

/-- The number of the row that becomes half `s` of packed row `p`: `2 p + s`. -/
def il {M M2 : ℕ} (hM : M + M = M2) (p : Fin M) (s : Fin 2) : Fin M2 :=
  ⟨2 * p.val + s.val, by have := p.isLt; have := s.isLt; omega⟩

theorem il_val {M M2 : ℕ} (hM : M + M = M2) (p : Fin M) (s : Fin 2) : (il hM p s).val = 2 * p.val + s.val := rfl

theorem fin2_cases (s : Fin 2) : s = 0 ∨ s = 1 := by fin_cases s <;> simp

/-- Every position of a packed row is some entry of one of its halves. -/
theorem exists_pk {K K2 : ℕ} (hK : K + K = K2) (q : Fin K2) : ∃ (s : Fin 2) (k : Fin K), q = pk hK s k := by
  have hq := q.isLt
  by_cases h : q.val < K
  · exact ⟨0, ⟨q.val, h⟩, Fin.ext (by simp [pk])⟩
  · exact ⟨1, ⟨q.val - K, by omega⟩, Fin.ext (by simp [pk]; omega)⟩

/-- Every row number below `M + M` is `2 p + s` for a packed row `p` and a half `s`. -/
theorem exists_il {M M2 : ℕ} (hM : M + M = M2) (n : Fin M2) : ∃ (p : Fin M) (s : Fin 2), n = il hM p s := by
  have hn := n.isLt
  exact ⟨⟨n.val / 2, by omega⟩, ⟨n.val % 2, by omega⟩, Fin.ext (by simp [il]; omega)⟩

/-- A sum over a packed row is the sum over its first half plus the sum over its second half. -/
theorem sum_pk {β : Type*} [AddCommMonoid β] {K K2 : ℕ} (hK : K + K = K2) (f : Fin K2 → β) :
    ∑ r : Fin K2, f r = (∑ k : Fin K, f (pk hK 0 k)) + ∑ k : Fin K, f (pk hK 1 k) := by
  subst hK
  rw [Fin.sum_univ_add]
  congr 1
  · exact Finset.sum_congr rfl fun k _ => congrArg f (Fin.ext (by simp [pk]))
  · exact Finset.sum_congr rfl fun k _ => congrArg f (Fin.ext (by simp [pk, Nat.add_comm]))

variable {α : Type}

/-! ## Two arrays of one shape joined, read at a packed position of the joined axis -/

/-- Joined along the rows, a row of the first half reads the first piece. -/
theorem concat_rows_pk0 {K K2 N : ℕ} (hK : K + K = K2) (x₀ x₁ : (⟨2, ![K, N]⟩ : Shape).Idx → α)
    (h : Shape.Concatenates [(⟨2, ![K, N]⟩ : Shape), ⟨2, ![K, N]⟩] ⟨2, ![K2, N]⟩ 0) (k : Fin K) (q : Fin N) :
    concatenate ⟨2, ![K2, N]⟩ 0 [⟨⟨2, ![K, N]⟩, x₀⟩, ⟨⟨2, ![K, N]⟩, x₁⟩] h (ix2 (pk hK 0 k) q) = x₀ (ix2 k q) :=
  concatenate_pair_apply_left 0 x₀ x₁ h (ix2 (pk hK 0 k) q) rfl (ix2 k q) fun b => by
    match b with
    | ⟨0, _⟩ => exact (pk_zero_val hK k).symm
    | ⟨1, _⟩ => rfl

/-- Joined along the rows, a row of the second half reads the second piece. -/
theorem concat_rows_pk1 {K K2 N : ℕ} (hK : K + K = K2) (x₀ x₁ : (⟨2, ![K, N]⟩ : Shape).Idx → α)
    (h : Shape.Concatenates [(⟨2, ![K, N]⟩ : Shape), ⟨2, ![K, N]⟩] ⟨2, ![K2, N]⟩ 0) (k : Fin K) (q : Fin N) :
    concatenate ⟨2, ![K2, N]⟩ 0 [⟨⟨2, ![K, N]⟩, x₀⟩, ⟨⟨2, ![K, N]⟩, x₁⟩] h (ix2 (pk hK 1 k) q) = x₁ (ix2 k q) :=
  concatenate_pair_apply_right 0 x₀ x₁ h (ix2 (pk hK 1 k) q) rfl rfl (ix2 k q)
    (fun b hb => by
      match b with
      | ⟨0, _⟩ => exact absurd rfl hb
      | ⟨1, _⟩ => rfl)
    (by show k.val + K = (pk hK 1 k).val; rw [pk_one_val]; omega)

/-- Joined along the columns, a column of the first half reads the first piece. -/
theorem concat_cols_pk0 {M J J2 : ℕ} (hJ : J + J = J2) (x₀ x₁ : (⟨2, ![M, J]⟩ : Shape).Idx → α)
    (h : Shape.Concatenates [(⟨2, ![M, J]⟩ : Shape), ⟨2, ![M, J]⟩] ⟨2, ![M, J2]⟩ 1) (p : Fin M) (j : Fin J) :
    concatenate ⟨2, ![M, J2]⟩ 1 [⟨⟨2, ![M, J]⟩, x₀⟩, ⟨⟨2, ![M, J]⟩, x₁⟩] h (ix2 p (pk hJ 0 j)) = x₀ (ix2 p j) :=
  concatenate_pair_apply_left 1 x₀ x₁ h (ix2 p (pk hJ 0 j)) rfl (ix2 p j) fun b => by
    match b with
    | ⟨0, _⟩ => rfl
    | ⟨1, _⟩ => exact (pk_zero_val hJ j).symm

/-- Joined along the columns, a column of the second half reads the second piece. -/
theorem concat_cols_pk1 {M J J2 : ℕ} (hJ : J + J = J2) (x₀ x₁ : (⟨2, ![M, J]⟩ : Shape).Idx → α)
    (h : Shape.Concatenates [(⟨2, ![M, J]⟩ : Shape), ⟨2, ![M, J]⟩] ⟨2, ![M, J2]⟩ 1) (p : Fin M) (j : Fin J) :
    concatenate ⟨2, ![M, J2]⟩ 1 [⟨⟨2, ![M, J]⟩, x₀⟩, ⟨⟨2, ![M, J]⟩, x₁⟩] h (ix2 p (pk hJ 1 j)) = x₁ (ix2 p j) :=
  concatenate_pair_apply_right 1 x₀ x₁ h (ix2 p (pk hJ 1 j)) rfl rfl (ix2 p j)
    (fun b hb => by
      match b with
      | ⟨0, _⟩ => rfl
      | ⟨1, _⟩ => exact absurd rfl hb)
    (by show j.val + J = (pk hJ 1 j).val; rw [pk_one_val]; omega)

/-- Two vectors joined end to end: a position of the first half reads the first vector. -/
theorem concat_vec_pk0 {J J2 : ℕ} (hJ : J + J = J2) (x₀ x₁ : (⟨1, ![J]⟩ : Shape).Idx → α)
    (h : Shape.Concatenates [(⟨1, ![J]⟩ : Shape), ⟨1, ![J]⟩] ⟨1, ![J2]⟩ 0) (j : Fin J) :
    concatenate ⟨1, ![J2]⟩ 0 [⟨⟨1, ![J]⟩, x₀⟩, ⟨⟨1, ![J]⟩, x₁⟩] h (ix1 (pk hJ 0 j)) = x₀ (ix1 j) :=
  concatenate_pair_apply_left 0 x₀ x₁ h (ix1 (pk hJ 0 j)) rfl (ix1 j) fun b => by
    match b with
    | ⟨0, _⟩ => exact (pk_zero_val hJ j).symm

/-- Two vectors joined end to end: a position of the second half reads the second vector. -/
theorem concat_vec_pk1 {J J2 : ℕ} (hJ : J + J = J2) (x₀ x₁ : (⟨1, ![J]⟩ : Shape).Idx → α)
    (h : Shape.Concatenates [(⟨1, ![J]⟩ : Shape), ⟨1, ![J]⟩] ⟨1, ![J2]⟩ 0) (j : Fin J) :
    concatenate ⟨1, ![J2]⟩ 0 [⟨⟨1, ![J]⟩, x₀⟩, ⟨⟨1, ![J]⟩, x₁⟩] h (ix1 (pk hJ 1 j)) = x₁ (ix1 j) :=
  concatenate_pair_apply_right 0 x₀ x₁ h (ix1 (pk hJ 1 j)) rfl rfl (ix1 j)
    (fun b hb => by
      match b with
      | ⟨0, _⟩ => exact absurd rfl hb)
    (by show j.val + J = (pk hJ 1 j).val; rw [pk_one_val]; omega)

/-! ## The row-major reshapes that pack two rows into one and back -/

/-- The reshape `M2 × K → M × K2`: packed row `p`, half `s`, entry `k` is row `2 p + s`, entry `k` of the operand. -/
theorem reshape_pack {M M2 K K2 : ℕ} (hM : M + M = M2) (hK : K + K = K2) (x : (⟨2, ![M2, K]⟩ : Shape).Idx → α)
    (h : (⟨2, ![M2, K]⟩ : Shape).ShapeCasts ⟨2, ![M, K2]⟩) (p : Fin M) (s : Fin 2) (k : Fin K) :
    shapeCast ⟨2, ![M, K2]⟩ x h (ix2 p (pk hK s k)) = x (ix2 (il hM p s) k) :=
  shapeCast_apply x h _ _ (by
    rw [Shape.rowMajor_val_two, Shape.rowMajor_val_two]
    show (2 * p.val + s.val) * K + k.val = p.val * K2 + (s.val * K + k.val)
    subst hK
    ring)

/-- The reshape `M × K2 → M2 × K`: row `2 p + s`, entry `k` is packed row `p`, half `s`, entry `k` of the operand. -/
theorem reshape_unpack {M M2 K K2 : ℕ} (hM : M + M = M2) (hK : K + K = K2) (y : (⟨2, ![M, K2]⟩ : Shape).Idx → α)
    (h : (⟨2, ![M, K2]⟩ : Shape).ShapeCasts ⟨2, ![M2, K]⟩) (p : Fin M) (s : Fin 2) (k : Fin K) :
    shapeCast ⟨2, ![M2, K]⟩ y h (ix2 (il hM p s) k) = y (ix2 p (pk hK s k)) :=
  shapeCast_apply y h _ _ (by
    rw [Shape.rowMajor_val_two, Shape.rowMajor_val_two]
    show p.val * K2 + (s.val * K + k.val) = (2 * p.val + s.val) * K + k.val
    subst hK
    ring)

end Cert.LibPackedPair
-- ==== Proof.MlpRows.lean ====
/-
  A three-layer perceptron applied to a row, and the same perceptron applied to two rows packed side by side.

  A layer sends a row `h` of length `K` to the row `q ↦ (∑ r, h r * A r q) + c q` of length `J`; the perceptron
  is three layers with `v ↦ max v 0` between them (not after the last).

  Packing: two rows of length `K` laid side by side make one row of length `K + K`; entry `k` of half `s` sits at
  position `s * K + k` (`pk`, with the facts about packed rows this module uses, in the module it imports). If the matrix of a layer on packed rows is block diagonal — its entry at
  (half `s`, `k`; half `s'`, `j`) is `Wt k j` when `s = s'` and `0` otherwise — and its bias is the bias `b` repeated,
  then half `s` of the result is the layer `Wt, b` applied to half `s` of the operand (`layer_blockdiag`): the sum
  over a packed row splits into the two sums over its halves (`sum_pk`), and in the half that meets a zero block
  every term is `h r * 0 = 0`. On the extended reals `x * 0 = 0` and `x + 0 = x` hold for every `x`, the infinities
  included, so the law needs no finiteness of the operand. `max · 0` acts entry by entry, so it commutes with
  taking a half, and the three layers compose (`mlpRow_blockdiag`).
-/
import proofs.«151276_j44693429682815_2_alg».proof.Proof.LibPackedPair
import Idealize.ShloMosaic.PureOps.Ideal

open scoped BigOperators

noncomputable section

namespace Cert.MlpRows

open Cert.LibPackedPair

/-- One affine layer on a row: entry `q` of the result is `(∑ r, h r * A r q) + c q`. -/
def layer {K J : ℕ} (A : Fin K → Fin J → EReal) (c : Fin J → EReal) (h : Fin K → EReal) : Fin J → EReal :=
  fun q => (∑ r : Fin K, h r * A r q) + c q

/-- The positive part, entry by entry. -/
def relu {J : ℕ} (h : Fin J → EReal) : Fin J → EReal := fun q => max (h q) 0

/-- Three layers, the positive part taken after the first and the second. -/
def mlpRow {K0 K1 K2 K3 : ℕ} (A0 : Fin K0 → Fin K1 → EReal) (c0 : Fin K1 → EReal)
    (A1 : Fin K1 → Fin K2 → EReal) (c1 : Fin K2 → EReal) (A2 : Fin K2 → Fin K3 → EReal) (c2 : Fin K3 → EReal)
    (h : Fin K0 → EReal) : Fin K3 → EReal :=
  layer A2 c2 (relu (layer A1 c1 (relu (layer A0 c0 h))))

/-- A layer whose matrix is block diagonal with both diagonal blocks `Wt`, and whose bias is `b` repeated, acts on
    each half of a packed row as the layer `Wt, b`. -/
theorem layer_blockdiag {K K2 J J2 : ℕ} (hK : K + K = K2) (hJ : J + J = J2)
    (A : Fin K2 → Fin J2 → EReal) (c : Fin J2 → EReal) (Wt : Fin K → Fin J → EReal) (b : Fin J → EReal)
    (hA : ∀ (s s' : Fin 2) (k : Fin K) (j : Fin J), A (pk hK s k) (pk hJ s' j) = if s = s' then Wt k j else 0)
    (hc : ∀ (s : Fin 2) (j : Fin J), c (pk hJ s j) = b j) (h : Fin K2 → EReal) (s : Fin 2) (j : Fin J) :
    layer A c h (pk hJ s j) = layer Wt b (fun k => h (pk hK s k)) j := by
  unfold layer
  rw [hc, sum_pk hK]
  simp only [hA]
  fin_cases s <;> simp

/-- The perceptron with block-diagonal matrices and repeated biases acts on each half of a packed row as the
    perceptron of the diagonal blocks. -/
theorem mlpRow_blockdiag {K0 P0 K1 P1 K2 P2 K3 P3 : ℕ}
    (h0 : K0 + K0 = P0) (h1 : K1 + K1 = P1) (h2 : K2 + K2 = P2) (h3 : K3 + K3 = P3)
    (A0 : Fin P0 → Fin P1 → EReal) (c0 : Fin P1 → EReal) (A1 : Fin P1 → Fin P2 → EReal) (c1 : Fin P2 → EReal)
    (A2 : Fin P2 → Fin P3 → EReal) (c2 : Fin P3 → EReal)
    (Wt0 : Fin K0 → Fin K1 → EReal) (b0 : Fin K1 → EReal) (Wt1 : Fin K1 → Fin K2 → EReal) (b1 : Fin K2 → EReal)
    (Wt2 : Fin K2 → Fin K3 → EReal) (b2 : Fin K3 → EReal)
    (hA0 : ∀ (s s' : Fin 2) k j, A0 (pk h0 s k) (pk h1 s' j) = if s = s' then Wt0 k j else 0)
    (hc0 : ∀ (s : Fin 2) j, c0 (pk h1 s j) = b0 j)
    (hA1 : ∀ (s s' : Fin 2) k j, A1 (pk h1 s k) (pk h2 s' j) = if s = s' then Wt1 k j else 0)
    (hc1 : ∀ (s : Fin 2) j, c1 (pk h2 s j) = b1 j)
    (hA2 : ∀ (s s' : Fin 2) k j, A2 (pk h2 s k) (pk h3 s' j) = if s = s' then Wt2 k j else 0)
    (hc2 : ∀ (s : Fin 2) j, c2 (pk h3 s j) = b2 j)
    (h : Fin P0 → EReal) (s : Fin 2) (o : Fin K3) :
    mlpRow A0 c0 A1 c1 A2 c2 h (pk h3 s o) = mlpRow Wt0 b0 Wt1 b1 Wt2 b2 (fun k => h (pk h0 s k)) o := by
  have e0 : (fun k => relu (layer A0 c0 h) (pk h1 s k)) = relu (layer Wt0 b0 (fun k => h (pk h0 s k))) :=
    funext fun k => congrArg (max · 0) (layer_blockdiag h0 h1 A0 c0 Wt0 b0 hA0 hc0 h s k)
  have e1 : (fun k => relu (layer A1 c1 (relu (layer A0 c0 h))) (pk h2 s k))
      = relu (layer Wt1 b1 (relu (layer Wt0 b0 (fun k => h (pk h0 s k))))) :=
    funext fun k => congrArg (max · 0)
      ((layer_blockdiag h1 h2 A1 c1 Wt1 b1 hA1 hc1 _ s k).trans (by rw [e0]))
  exact (layer_blockdiag h2 h3 A2 c2 Wt2 b2 hA2 hc2 _ s o).trans (by rw [e1]; rfl)

end Cert.MlpRows

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.KernelRows.lean ====
/-
  What the kernel body stores, read at one entry.

  The body loads a block of 5000 packed rows of length 128, three matrices (128 × 128, 128 × 128, 128 × 64) and three
  bias rows (128, 128, 64), and stores one value: three times over, the block multiplied by a matrix on the matrix unit
  into a zero accumulator, plus the bias viewed as a single row and broadcast down the 5000 rows, the positive part
  taken after the first and the second product. At the ideal values a change of float format is the identity and the
  product into a zero accumulator is the plain sum over the contraction index, so entry `(p, q)` of the stored value is
  the three-layer perceptron of the loaded matrices and biases applied to row `p` of the loaded block, at `q`: it
  depends on the block only through that row.
-/
import proofs.«151276_j44693429682815_2_alg».proof.Proof.Gen.KernelIdeal.Skeleton
import proofs.«151276_j44693429682815_2_alg».proof.Proof.MlpRows
import proofs.«151276_j44693429682815_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open Idealize.ShloMosaic Idealize.ShloMosaic.ValueIdx
open scoped BigOperators

noncomputable section

namespace Cert.KernelRows

open Cert.MlpRows

/-- One layer as the body spells it — the operand narrowed to bf16, times the matrix into the zero accumulator, plus
    the bias as one row broadcast down the rows — at entry `(p, q)`: the layer of the matrix and the bias applied to
    row `p` of the operand. -/
theorem layer_entry {M K N : ℕ} (x : FVec Ideal ⟨2, ![M, K]⟩ .f32) (w : FVec Ideal ⟨2, ![K, N]⟩ .bf16)
    (b : FVec Ideal ⟨1, ![N]⟩ .f32) (hx : FTy.bf16.bits < FTy.f32.bits)
    (hw : (⟨2, ![K, N]⟩ : Shape).ShapeCasts ⟨2, ![K, N]⟩) (hb : (⟨1, ![N]⟩ : Shape).ShapeCasts ⟨1, ![N]⟩)
    (hb1 : (⟨1, ![N]⟩ : Shape).ShapeCasts ⟨2, ![1, N]⟩) (hb2 : (⟨2, ![1, N]⟩ : Shape).Broadcasts ⟨2, ![M, N]⟩)
    (p : Fin M) (q : Fin N) :
    addf (matmul (DotDims.plain M K N) none (truncf .bf16 x hx) (shapeCast ⟨2, ![K, N]⟩ w hw)
        (constant ⟨2, ![M, N]⟩ .f32 0x00000000#32))
      (broadcastTo ⟨2, ![M, N]⟩ (shapeCast ⟨2, ![1, N]⟩ (shapeCast ⟨1, ![N]⟩ b hb) hb1) hb2) (ix2 p q)
    = layer (fun r q => w (ix2 r q)) (fun q => b (ix1 q)) (fun r => x (ix2 p r)) q := by
  rw [addf_apply, broadcastTo_1b_ab_apply, shapeCast_a_1a_apply, shapeCast_self, shapeCast_self]
  exact congrArg (· + b (ix1 q)) (Cert.LibPlainDot.matmul_zero_plain none (truncf .bf16 x hx) w p q)

/-- The positive part as the body spells it (the maximum with a broadcast zero word), at an entry. -/
theorem relu_entry {s : Shape} (x : FVec Ideal s .f32) (i : s.Idx) :
    maximumf x (broadcast s (Scalar.ofBits (F := Ideal) .f32 0x00000000#32)) i = max (x i) 0 := by
  rw [maximumf_apply, broadcast_apply]
  exact congrArg (max (x i)) Ideal.ofBits_zero_f32

end Cert.KernelRows

namespace Cert.KernelIdeal.Gen

open Cert.MlpRows Cert.KernelIdeal

/-- Entry `(p, q)` of the value the body stores: the perceptron of the loaded matrices and biases on row `p` of
    the loaded block. -/
theorem pay_entry (v0 : Vec Ideal S5000x128 .f32) (v3 : Vec Ideal S128x128 .bf16) (v6 : Vec Ideal S128 .f32)
    (v14 : Vec Ideal S128x128 .bf16) (v17 : Vec Ideal S128 .f32) (v25 : Vec Ideal S128x64 .bf16)
    (v28 : Vec Ideal S64 .f32) (p : Fin 5000) (q : Fin 64) :
    k0_pay1 (F := Ideal) v0 v3 v6 v14 v17 v25 v28 (ix2 p q)
      = mlpRow (fun r q => v3 (ix2 r q)) (fun q => v6 (ix1 q)) (fun r q => v14 (ix2 r q)) (fun q => v17 (ix1 q))
          (fun r q => v25 (ix2 r q)) (fun q => v28 (ix1 q)) (fun r => v0 (ix2 p r)) q := by
  unfold k0_pay1
  refine (Cert.KernelRows.layer_entry (M := 5000) (K := 128) (N := 64) _ v25 v28 _ _ _ _ _ p q).trans ?_
  unfold mlpRow
  refine congrArg (fun h => layer (fun r q => v25 (ix2 r q)) (fun q => v28 (ix1 q)) h q) (funext fun r => ?_)
  refine (Cert.KernelRows.relu_entry _ (ix2 p r)).trans (congrArg (max · 0) ?_)
  refine (Cert.KernelRows.layer_entry (M := 5000) (K := 128) (N := 128) _ v14 v17 _ _ _ _ _ p r).trans ?_
  refine congrArg (fun h => layer (fun r q => v14 (ix2 r q)) (fun q => v17 (ix1 q)) h r) (funext fun r' => ?_)
  refine (Cert.KernelRows.relu_entry _ (ix2 p r')).trans (congrArg (max · 0) ?_)
  refine (Cert.KernelRows.layer_entry (M := 5000) (K := 128) (N := 128) _ v3 v6 _ _ _ _ _ p r').trans ?_
  refine congrArg (fun h => layer (fun r q => v3 (ix2 r q)) (fun q => v6 (ix1 q)) h r') (funext fun k => ?_)
  rw [shapeCast_self]

end Cert.KernelIdeal.Gen

end
-- ==== Proof.KernelBlocks.lean ====
/-
  From the blocks the grid points write back to the whole output array of the region.

  The region runs on a grid of 100 points. Point `t` is handed rows `5000 t … 5000 t + 4999` of the packed operand (a
  500000 × 128 array), the three matrices and the three bias rows whole (their windows do not move), and writes back rows
  `5000 t … 5000 t + 4999` of the 500000 × 64 result. `packedOut` is the packed perceptron as ONE function of the seven
  arrays the region finds: entry `(n, q)` is the perceptron of the matrices and biases applied to row `n` of the operand,
  at `q`. Since an entry of the body's stored value depends on the operand block only through its own row, what point
  `t` writes back is block `t` of `packedOut` (`flushed_eq`); the 100 blocks tile the result's rows (`cover`: row `n`
  lies in the block of point `n / 5000`); so after the region the result array is `packedOut` of the arrays it found
  (`final`).
-/
import proofs.«151276_j44693429682815_2_alg».proof.Proof.Gen.KernelIdeal.Frame
import proofs.«151276_j44693429682815_2_alg».proof.Proof.KernelRows
import Idealize.ShloMosaic.Lib.Pipeline.Value
import Idealize.ShloMosaic.Lib.ValueIdx

set_option maxRecDepth 16384

noncomputable section

namespace Cert.KernelIdeal.Packed

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MlpRows

/-- The packed perceptron of the seven arrays: entry `(n, q)` is the perceptron on row `n` of `X`, at `q`. -/
def packedOut (X : S500000x128.Idx → EReal) (A0 : S128x128.Idx → EReal) (c0 : S128.Idx → EReal)
    (A1 : S128x128.Idx → EReal) (c1 : S128.Idx → EReal) (A2 : S128x64.Idx → EReal) (c2 : S64.Idx → EReal) :
    S500000x64.Idx → EReal :=
  fun i => mlpRow (fun r q => A0 (ix2 r q)) (fun q => c0 (ix1 q)) (fun r q => A1 (ix2 r q)) (fun q => c1 (ix1 q))
    (fun r q => A2 (ix2 r q)) (fun q => c2 (ix1 q)) (fun r => X (ix2 (i 0) r)) (i 1)

/-- An entry of the body's stored value is the entry of `packedOut` at any index with the same column whose row of `X`
    is the block's row. -/
theorem block_entry (X : S500000x128.Idx → EReal) (x0 : Vec Ideal S5000x128 .f32) (x1 : Vec Ideal S128x128 .bf16)
    (x2 : Vec Ideal S128 .f32) (x3 : Vec Ideal S128x128 .bf16) (x4 : Vec Ideal S128 .f32) (x5 : Vec Ideal S128x64 .bf16)
    (x6 : Vec Ideal S64 .f32) (y : S5000x64.Idx) (i : S500000x64.Idx)
    (hrow : ∀ r : Fin 128, x0 (ix2 (y 0) r) = X (ix2 (i 0) r)) (hcol : i 1 = y 1) :
    k0_pay1 (F := Ideal) x0 x1 x2 x3 x4 x5 x6 y = packedOut X x1 x2 x3 x4 x5 x6 i := by
  obtain ⟨p, q, rfl⟩ : ∃ (p : Fin 5000) (q : Fin 64), y = ix2 p q := ⟨y 0, y 1, eq_ix2 y⟩
  refine (pay_entry x0 x1 x2 x3 x4 x5 x6 p q).trans ?_
  unfold packedOut
  rw [hcol]
  exact congrArg (fun h => mlpRow (fun r q => x1 (ix2 r q)) (fun q => x2 (ix1 q)) (fun r q => x3 (ix2 r q))
    (fun q => x4 (ix1 q)) (fun r q => x5 (ix2 r q)) (fun q => x6 (ix1 q)) h q) (funext hrow)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the operand's block moves with the result's along the rows, neither
    moves along the columns, and the matrices' and biases' windows stay at their one block. -/
theorem idx_facts : ∀ t : Fin cfg0.N, win0_0.index t (0 : Fin 2) = win0_7.index t (0 : Fin 2)
    ∧ win0_0.index t (1 : Fin 2) = 0 ∧ win0_7.index t (1 : Fin 2) = 0 ∧ win0_7.index t (0 : Fin 2) ≤ 99
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

/-- Every block of rows of the result is some point's. -/
theorem idx_onto : ∀ q0 : Fin 100, ∃ t : Fin cfg0.N, win0_7.index t = ![q0.val, 0] :=
  (by decide +kernel : ∀ q0 : Fin 100, ∃ t : Fin grid0.N, win0_7.index t = ![q0.val, 0])

/-- The matrices' and the biases' windows hand every point the whole array. -/
theorem iblk1 (c : Dev nD) (t : Fin cfg0.N) : (iblk m c 1 t : S128x128.Idx → EReal) = V m c main_v6 := by
  obtain ⟨_, _, _, _, e0, e1, _⟩ := idx_facts t
  funext y
  show V m c main_v6 (((cfg0.win 1).blk t).view.emb y) = V m c main_v6 y
  refine congrArg (V m c main_v6) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem iblk2 (c : Dev nD) (t : Fin cfg0.N) : (iblk m c 2 t : S128.Idx → EReal) = V m c main_v19 := by
  obtain ⟨_, _, _, _, _, _, e0, _⟩ := idx_facts t
  funext y
  show V m c main_v19 (((cfg0.win 2).blk t).view.emb y) = V m c main_v19 y
  refine congrArg (V m c main_v19) (funext fun a => Fin.ext ?_)
  match a with
  | ⟨0, _⟩ => show win0_2.index t (0 : Fin 1) * 128 + 1 * (y 0).val = (y 0).val; omega

theorem iblk3 (c : Dev nD) (t : Fin cfg0.N) : (iblk m c 3 t : S128x128.Idx → EReal) = V m c main_v12 := by
  obtain ⟨_, _, _, _, _, _, _, e0, e1, _⟩ := idx_facts t
  funext y
  show V m c main_v12 (((cfg0.win 3).blk t).view.emb y) = V m c main_v12 y
  refine congrArg (V m c main_v12) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk4 (c : Dev nD) (t : Fin cfg0.N) : (iblk m c 4 t : S128.Idx → EReal) = V m c main_v20 := by
  obtain ⟨_, _, _, _, _, _, _, _, _, e0, _⟩ := idx_facts t
  funext y
  show V m c main_v20 (((cfg0.win 4).blk t).view.emb y) = V m c main_v20 y
  refine congrArg (V m c main_v20) (funext fun a => Fin.ext ?_)
  match a with
  | ⟨0, _⟩ => show win0_4.index t (0 : Fin 1) * 128 + 1 * (y 0).val = (y 0).val; omega

theorem iblk5 (c : Dev nD) (t : Fin cfg0.N) : (iblk m c 5 t : S128x64.Idx → EReal) = V m c main_v18 := by
  obtain ⟨_, _, _, _, _, _, _, _, _, _, e0, e1, _⟩ := idx_facts t
  funext y
  show V m c main_v18 (((cfg0.win 5).blk t).view.emb y) = V m c main_v18 y
  refine congrArg (V m c main_v18) (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem iblk6 (c : Dev nD) (t : Fin cfg0.N) : (iblk m c 6 t : S64.Idx → EReal) = V m c main_v21 := by
  obtain ⟨_, _, _, _, _, _, _, _, _, _, _, _, e0⟩ := idx_facts t
  funext y
  show V m c main_v21 (((cfg0.win 6).blk t).view.emb y) = V m c main_v21 y
  refine congrArg (V m c main_v21) (funext fun a => Fin.ext ?_)
  match a with
  | ⟨0, _⟩ => show win0_6.index t (0 : Fin 1) * 64 + 1 * (y 0).val = (y 0).val; omega

/-- WHAT POINT `t` WRITES BACK is block `t` of `packedOut` of the arrays as the region finds them. -/
theorem flushed_eq (c : Dev nD) (t : Fin cfg0.N) :
    (dats m 0 c).flushed 7 t = ((cfg0.win 7).blk t).view.read (Elt Ideal)
      (packedOut (V m c main_v0) (V m c main_v6) (V m c main_v19) (V m c main_v12) (V m c main_v20) (V m c main_v18)
        (V m c main_v21)) := by
  show (cfg0.win 7).cut (grid0.coords t) ((dats m 0 c).after 7 t) = _
  rw [after0_7]
  unfold out0_7
  rw [View.canon_unit_zero hz2]
  simp only [View.ld_unit_zero (S := S5000x128) hz2, View.ld_unit_zero (S := S128x128) hz2,
    View.ld_unit_zero (S := S128) hz1, View.ld_unit_zero (S := S128x64) hz2, View.ld_unit_zero (S := S64) hz1]
  obtain ⟨e0, e1, e2, e3, _⟩ := idx_facts t
  funext j
  show k0_pay1 (F := Ideal) (iblk m c 0 t) (iblk m c 1 t) (iblk m c 2 t) (iblk m c 3 t) (iblk m c 4 t) (iblk m c 5 t)
      (iblk m c 6 t) j
    = packedOut (V m c main_v0) (V m c main_v6) (V m c main_v19) (V m c main_v12) (V m c main_v20) (V m c main_v18)
        (V m c main_v21) (((cfg0.win 7).blk t).view.emb j)
  rw [← iblk1 m c t, ← iblk2 m c t, ← iblk3 m c t, ← iblk4 m c t, ← iblk5 m c t, ← iblk6 m c t]
  refine block_entry (V m c main_v0) (iblk m c 0 t) (iblk m c 1 t) (iblk m c 2 t) (iblk m c 3 t) (iblk m c 4 t)
    (iblk m c 5 t) (iblk m c 6 t) j (((cfg0.win 7).blk t).view.emb j) (fun r => ?_) (Fin.ext ?_)
  · show V m c main_v0 (((cfg0.win 0).blk t).view.emb (ix2 (j 0) r)) = V m c main_v0 (ix2 ((((cfg0.win 7).blk t).view.emb j) 0) r)
    refine congrArg (V m c main_v0) (funext fun a => Fin.ext ?_)
    match a with
    | ⟨0, _⟩ => show win0_0.index t (0 : Fin 2) * 5000 + 1 * (j 0).val = win0_7.index t (0 : Fin 2) * 5000 + 1 * (j 0).val; omega
    | ⟨1, _⟩ => show win0_0.index t (1 : Fin 2) * 128 + 1 * r.val = r.val; omega
  · show win0_7.index t (1 : Fin 2) * 64 + 1 * (j 1).val = (j 1).val; omega

/-- An index of the result is in point `t`'s block iff each coordinate is in the block's range on its axis. -/
theorem mem_blk (t : Fin cfg0.N) (i : S500000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v22).slice (win0_7.rect t)).set ↔ _
  rw [View.set_slice_whole, Rect.mem_set_unit]
  exact Iff.rfl

/-- The blocks tile the result: row `n` lies in the block of point `n / 5000`. -/
theorem cover (i : S500000x64.Idx) :
    ∃ t : Fin cfg0.N, (cfg0.win 7).flush t = true ∧ i ∈ ((cfg0.win 7).blk t).view.set := by
  have hi0 : (i 0).val < 500000 := (i 0).isLt
  have hi1 : (i 1).val < 64 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- THE RESULT ARRAY after the region: the packed perceptron of the arrays the region found. -/
theorem final (c : Dev nD) : (dats m 0 c).arrAt 7 cfg0.N
    = packedOut (V m c main_v0) (V m c main_v6) (V m c main_v19) (V m c main_v12) (V m c main_v20) (V m c main_v18)
        (V m c main_v21) :=
  (dats m 0 c).arrAt_eq_of_cover 7 _ (fun t _ => flushed_eq m c t) cover

end Cert.KernelIdeal.Packed

end
-- ==== Proof.KernelHost.lean ====
/-
  The arrays the region finds, as functions of the program's arguments.

  Before the region the program reshapes the `1000000 × 64` operand `x` in row-major order to `500000 × 128` (rows `2 p`
  and `2 p + 1` side by side in row `p`), and for each weight matrix `W` (`J × K`) builds the `2K × 2J` matrix
  `[[Wᵀ, 0], [0, Wᵀ]]` — the transpose joined with a zero block along the columns, the zero block joined with the
  transpose, and the two joined along the rows — narrowed to bf16, which at the ideal values changes nothing; each bias is
  joined with itself. So, at packed positions:

  * the reshaped operand at `(p, pk s k)` is `x (2 p + s, k)`;
  * the built matrix at `(pk s k, pk s' j)` is `W (j, k)` when `s = s'` and `0` otherwise (the zero block is the
    broadcast of the zero word, which denotes `0`);
  * the doubled bias at `pk s j` is `b j`.
-/
import proofs.«151276_j44693429682815_2_alg».proof.Proof.Gen.KernelIdeal.Frame
import proofs.«151276_j44693429682815_2_alg».proof.Proof.LibPackedPair
import Idealize.ShloMosaic.Lib.StableHlo.Run
import Idealize.ShloMosaic.Lib.Pipeline.Value
import Idealize.ShloMosaic.Lib.ValueIdx
import Idealize.ShloMosaic.PureOps.Ideal.Laws

noncomputable section

namespace Cert.BlockDiag

open Idealize.ShloMosaic Idealize.ShloMosaic.ValueIdx Cert.LibPackedPair

/-- `[[Wᵀ, 0], [0, Wᵀ]]` as the program builds it, at the entry in row `k` of half `s` and column `j` of half `s'`:
    `W (j, k)` on the diagonal blocks, `0` off them. -/
theorem entry {J K J2 K2 : ℕ} (hK : K + K = K2) (hJ : J + J = J2) (W : (⟨2, ![J, K]⟩ : Shape).Idx → EReal)
    (hT : (⟨2, ![J, K]⟩ : Shape).Transposes [1, 0] ⟨2, ![K, J]⟩)
    (hB : (⟨0, ![]⟩ : Shape).BroadcastsInDim ⟨2, ![K, J]⟩ (![] : Fin 0 → Fin 2))
    (hC1 : Shape.Concatenates [(⟨2, ![K, J]⟩ : Shape), ⟨2, ![K, J]⟩] ⟨2, ![K, J2]⟩ 1)
    (hC0 : Shape.Concatenates [(⟨2, ![K, J2]⟩ : Shape), ⟨2, ![K, J2]⟩] ⟨2, ![K2, J2]⟩ 0)
    (s s' : Fin 2) (k : Fin K) (j : Fin J) :
    concatenate ⟨2, ![K2, J2]⟩ 0
      [⟨⟨2, ![K, J2]⟩, concatenate ⟨2, ![K, J2]⟩ 1
          [⟨⟨2, ![K, J]⟩, transpose ⟨2, ![K, J]⟩ [1, 0] W hT⟩,
           ⟨⟨2, ![K, J]⟩, broadcastInDim ⟨2, ![K, J]⟩ ![] hB (constant (F := Ideal) ⟨0, ![]⟩ .f32 0x00000000#32)⟩] hC1⟩,
       ⟨⟨2, ![K, J2]⟩, concatenate ⟨2, ![K, J2]⟩ 1
          [⟨⟨2, ![K, J]⟩, broadcastInDim ⟨2, ![K, J]⟩ ![] hB (constant (F := Ideal) ⟨0, ![]⟩ .f32 0x00000000#32)⟩,
           ⟨⟨2, ![K, J]⟩, transpose ⟨2, ![K, J]⟩ [1, 0] W hT⟩] hC1⟩] hC0
      (ix2 (pk hK s k) (pk hJ s' j))
    = if s = s' then W (ix2 j k) else (0 : EReal) := by
  have hz : ∀ i, broadcastInDim ⟨2, ![K, J]⟩ ![] hB (constant (F := Ideal) ⟨0, ![]⟩ .f32 0x00000000#32) i = (0 : EReal) :=
    fun i => (broadcastInDim_apply _ hB _ i ix0 (fun a => a.elim0)).trans Ideal.ofBits_zero_f32
  have ht : transpose ⟨2, ![K, J]⟩ [1, 0] W hT (ix2 k j) = W (ix2 j k) :=
    transpose_apply [1, 0] W hT (ix2 k j) (ix2 j k) (fun b => match b with
      | ⟨0, _⟩ => rfl
      | ⟨1, _⟩ => rfl)
  obtain rfl | rfl := fin2_cases s <;> obtain rfl | rfl := fin2_cases s'
  · rw [concat_rows_pk0, concat_cols_pk0, ht]; simp
  · rw [concat_rows_pk0, concat_cols_pk1, hz]; simp
  · rw [concat_rows_pk1, concat_cols_pk0, hz]; simp
  · rw [concat_rows_pk1, concat_cols_pk1, ht]; simp

/-- A vector joined with itself, at position `j` of either half: the vector at `j`. -/
theorem doubled {J J2 : ℕ} (hJ : J + J = J2) (b : (⟨1, ![J]⟩ : Shape).Idx → EReal)
    (h : Shape.Concatenates [(⟨1, ![J]⟩ : Shape), ⟨1, ![J]⟩] ⟨1, ![J2]⟩ 0) (s : Fin 2) (j : Fin J) :
    concatenate ⟨1, ![J2]⟩ 0 [⟨⟨1, ![J]⟩, b⟩, ⟨⟨1, ![J]⟩, b⟩] h (ix1 (pk hJ s j)) = b (ix1 j) := by
  obtain rfl | rfl := fin2_cases s
  · exact concat_vec_pk0 hJ b b h j
  · exact concat_vec_pk1 hJ b b h j

end Cert.BlockDiag

namespace Cert.KernelIdeal.Host

open Idealize.ShloMosaic Idealize.ShloMosaic.TcCoe Idealize.ShloMosaic.ValueIdx Idealize.SL.Sem
open Idealize.ShloMosaic.StableHlo
open Cert.KernelIdeal Cert.KernelIdeal.Gen Cert.LibPackedPair

variable (m : (ℓ : Loc nD τ sig) → Buf (Elt Ideal) ℓ)

theorem h1M : 500000 + 500000 = 1000000 := rfl
theorem h128 : 64 + 64 = 128 := rfl
theorem h64 : 32 + 32 = 64 := rfl

/-- The operand window's array: the argument `x` reshaped. -/
theorem V_v0 (c : Dev nD) : (V m c main_v0 : S500000x128.Idx → EReal)
    = shapeCast S500000x128 (m ((c : Thread nD τ).loc main_arg0)) shapeCasts_S1000000x64_S500000x128 := by
  show StableHlo.after hostOps0 (fun b => m (c, b)) (Proc.devRef .tc main_v0) = _
  after_results <;> rfl

/-- The first matrix window's array: `[[W0ᵀ, 0], [0, W0ᵀ]]`. -/
theorem V_v6 (c : Dev nD) : (V m c main_v6 : S128x128.Idx → EReal)
    = truncf .bf16 (concatenate S128x128 0
      [⟨S64x128, concatenate S64x128 1
          [⟨S64x64, transpose S64x64 [1, 0] (m ((c : Thread nD τ).loc main_arg3)) transposes_S64x64_S64x64_1_0⟩,
           ⟨S64x64, broadcastInDim S64x64 ![] bcast_S_S64x64 (constant (F := Ideal) S_ .f32 0x00000000#32)⟩] concatenates_S64x64_S64x64_S64x128_d1⟩,
       ⟨S64x128, concatenate S64x128 1
          [⟨S64x64, broadcastInDim S64x64 ![] bcast_S_S64x64 (constant (F := Ideal) S_ .f32 0x00000000#32)⟩,
           ⟨S64x64, transpose S64x64 [1, 0] (m ((c : Thread nD τ).loc main_arg3)) transposes_S64x64_S64x64_1_0⟩] concatenates_S64x64_S64x64_S64x128_d1⟩]
      concatenates_S64x128_S64x128_S128x128_d0) bitsLt_bf16_f32 := by
  show StableHlo.after hostOps0 (fun b => m (c, b)) (Proc.devRef .tc main_v6) = _
  after_results <;> rfl

/-- The second matrix window's array: `[[W1ᵀ, 0], [0, W1ᵀ]]`. -/
theorem V_v12 (c : Dev nD) : (V m c main_v12 : S128x128.Idx → EReal)
    = truncf .bf16 (concatenate S128x128 0
      [⟨S64x128, concatenate S64x128 1
          [⟨S64x64, transpose S64x64 [1, 0] (m ((c : Thread nD τ).loc main_arg5)) transposes_S64x64_S64x64_1_0⟩,
           ⟨S64x64, broadcastInDim S64x64 ![] bcast_S_S64x64 (constant (F := Ideal) S_ .f32 0x00000000#32)⟩] concatenates_S64x64_S64x64_S64x128_d1⟩,
       ⟨S64x128, concatenate S64x128 1
          [⟨S64x64, broadcastInDim S64x64 ![] bcast_S_S64x64 (constant (F := Ideal) S_ .f32 0x00000000#32)⟩,
           ⟨S64x64, transpose S64x64 [1, 0] (m ((c : Thread nD τ).loc main_arg5)) transposes_S64x64_S64x64_1_0⟩] concatenates_S64x64_S64x64_S64x128_d1⟩]
      concatenates_S64x128_S64x128_S128x128_d0) bitsLt_bf16_f32 := by
  show StableHlo.after hostOps0 (fun b => m (c, b)) (Proc.devRef .tc main_v12) = _
  after_results <;> rfl

/-- The third matrix window's array: `[[W2ᵀ, 0], [0, W2ᵀ]]`. -/
theorem V_v18 (c : Dev nD) : (V m c main_v18 : S128x64.Idx → EReal)
    = truncf .bf16 (concatenate S128x64 0
      [⟨S64x64, concatenate S64x64 1
          [⟨S64x32, transpose S64x32 [1, 0] (m ((c : Thread nD τ).loc main_arg7)) transposes_S32x64_S64x32_1_0⟩,
           ⟨S64x32, broadcastInDim S64x32 ![] bcast_S_S64x32 (constant (F := Ideal) S_ .f32 0x00000000#32)⟩] concatenates_S64x32_S64x32_S64x64_d1⟩,
       ⟨S64x64, concatenate S64x64 1
          [⟨S64x32, broadcastInDim S64x32 ![] bcast_S_S64x32 (constant (F := Ideal) S_ .f32 0x00000000#32)⟩,
           ⟨S64x32, transpose S64x32 [1, 0] (m ((c : Thread nD τ).loc main_arg7)) transposes_S32x64_S64x32_1_0⟩] concatenates_S64x32_S64x32_S64x64_d1⟩]
      concatenates_S64x64_S64x64_S128x64_d0) bitsLt_bf16_f32 := by
  show StableHlo.after hostOps0 (fun b => m (c, b)) (Proc.devRef .tc main_v18) = _
  after_results <;> rfl

/-- The bias windows' arrays: each bias joined with itself. -/
theorem V_v19 (c : Dev nD) : (V m c main_v19 : S128.Idx → EReal)
    = concatenate S128 0 [⟨S64, m ((c : Thread nD τ).loc main_arg4)⟩, ⟨S64, m ((c : Thread nD τ).loc main_arg4)⟩]
        concatenates_S64_S64_S128_d0 := by
  show StableHlo.after hostOps0 (fun b => m (c, b)) (Proc.devRef .tc main_v19) = _
  after_results <;> rfl

theorem V_v20 (c : Dev nD) : (V m c main_v20 : S128.Idx → EReal)
    = concatenate S128 0 [⟨S64, m ((c : Thread nD τ).loc main_arg6)⟩, ⟨S64, m ((c : Thread nD τ).loc main_arg6)⟩]
        concatenates_S64_S64_S128_d0 := by
  show StableHlo.after hostOps0 (fun b => m (c, b)) (Proc.devRef .tc main_v20) = _
  after_results <;> rfl

theorem V_v21 (c : Dev nD) : (V m c main_v21 : S64.Idx → EReal)
    = concatenate S64 0 [⟨S32, m ((c : Thread nD τ).loc main_arg8)⟩, ⟨S32, m ((c : Thread nD τ).loc main_arg8)⟩]
        concatenates_S32_S32_S64_d0 := by
  show StableHlo.after hostOps0 (fun b => m (c, b)) (Proc.devRef .tc main_v21) = _
  after_results <;> rfl

/-! ## The same arrays at packed positions -/

theorem operand_entry (c : Dev nD) (p : Fin 500000) (s : Fin 2) (k : Fin 64) :
    (V m c main_v0 : S500000x128.Idx → EReal) (ix2 p (pk h128 s k))
      = (m ((c : Thread nD τ).loc main_arg0) : S1000000x64.Idx → EReal) (ix2 (il h1M p s) k) := by
  rw [V_v0]
  exact reshape_pack h1M h128 _ _ p s k

theorem matrix0_entry (c : Dev nD) (s s' : Fin 2) (k : Fin 64) (j : Fin 64) :
    (V m c main_v6 : S128x128.Idx → EReal) (ix2 (pk h128 s k) (pk h128 s' j))
      = if s = s' then (m ((c : Thread nD τ).loc main_arg3) : S64x64.Idx → EReal) (ix2 j k) else (0 : EReal) := by
  rw [V_v6]
  refine (truncf_apply (ψ := .bf16) (φ := .f32) _ bitsLt_bf16_f32 _).trans ?_
  exact Cert.BlockDiag.entry h128 h128 (m ((c : Thread nD τ).loc main_arg3)) transposes_S64x64_S64x64_1_0 bcast_S_S64x64
    concatenates_S64x64_S64x64_S64x128_d1 concatenates_S64x128_S64x128_S128x128_d0 s s' k j

theorem matrix1_entry (c : Dev nD) (s s' : Fin 2) (k : Fin 64) (j : Fin 64) :
    (V m c main_v12 : S128x128.Idx → EReal) (ix2 (pk h128 s k) (pk h128 s' j))
      = if s = s' then (m ((c : Thread nD τ).loc main_arg5) : S64x64.Idx → EReal) (ix2 j k) else (0 : EReal) := by
  rw [V_v12]
  refine (truncf_apply (ψ := .bf16) (φ := .f32) _ bitsLt_bf16_f32 _).trans ?_
  exact Cert.BlockDiag.entry h128 h128 (m ((c : Thread nD τ).loc main_arg5)) transposes_S64x64_S64x64_1_0 bcast_S_S64x64
    concatenates_S64x64_S64x64_S64x128_d1 concatenates_S64x128_S64x128_S128x128_d0 s s' k j

theorem matrix2_entry (c : Dev nD) (s s' : Fin 2) (k : Fin 64) (j : Fin 32) :
    (V m c main_v18 : S128x64.Idx → EReal) (ix2 (pk h128 s k) (pk h64 s' j))
      = if s = s' then (m ((c : Thread nD τ).loc main_arg7) : S32x64.Idx → EReal) (ix2 j k) else (0 : EReal) := by
  rw [V_v18]
  refine (truncf_apply (ψ := .bf16) (φ := .f32) _ bitsLt_bf16_f32 _).trans ?_
  exact Cert.BlockDiag.entry h128 h64 (m ((c : Thread nD τ).loc main_arg7)) transposes_S32x64_S64x32_1_0 bcast_S_S64x32
    concatenates_S64x32_S64x32_S64x64_d1 concatenates_S64x64_S64x64_S128x64_d0 s s' k j

theorem bias0_entry (c : Dev nD) (s : Fin 2) (j : Fin 64) :
    (V m c main_v19 : S128.Idx → EReal) (ix1 (pk h128 s j))
      = (m ((c : Thread nD τ).loc main_arg4) : S64.Idx → EReal) (ix1 j) := by
  rw [V_v19]
  exact Cert.BlockDiag.doubled h128 _ _ s j

theorem bias1_entry (c : Dev nD) (s : Fin 2) (j : Fin 64) :
    (V m c main_v20 : S128.Idx → EReal) (ix1 (pk h128 s j))
      = (m ((c : Thread nD τ).loc main_arg6) : S64.Idx → EReal) (ix1 j) := by
  rw [V_v20]
  exact Cert.BlockDiag.doubled h128 _ _ s j

theorem bias2_entry (c : Dev nD) (s : Fin 2) (j : Fin 32) :
    (V m c main_v21 : S64.Idx → EReal) (ix1 (pk h64 s j))
      = (m ((c : Thread nD τ).loc main_arg8) : S32.Idx → EReal) (ix1 j) := by
  rw [V_v21]
  exact Cert.BlockDiag.doubled h64 _ _ s j

end Cert.KernelIdeal.Host

end
-- ==== Proof.MlpSpec.lean ====
/-
  The specification: the three-layer perceptron applied to every row of the operand.

  For an operand `x` (`N × C0`), weight matrices `W0` (`C1 × C0`), `W1` (`C2 × C1`), `W2` (`C3 × C2`) and biases `b0`,
  `b1`, `b2`, entry `(n, o)` of `mlp x W0 b0 W1 b1 W2 b2` is
  `∑ j, max (∑ i, max (∑ k, x (n, k) * W0 (i, k) + b0 i) 0 * W1 (j, i) + b1 j) 0 * W2 (o, j) + b2 o`
  on the extended reals: each layer multiplies a row by the TRANSPOSE of its weight matrix and adds the bias.
-/
import proofs.«151276_j44693429682815_2_alg».proof.Proof.MlpRows

open Idealize.ShloMosaic Idealize.ShloMosaic.ValueIdx

noncomputable section

namespace Cert.MlpSpec

open Cert.MlpRows

/-- The perceptron of the weights `W0, W1, W2` and biases `b0, b1, b2` on every row of `x`. -/
def mlp {N C0 C1 C2 C3 : ℕ} (x : (⟨2, ![N, C0]⟩ : Shape).Idx → EReal)
    (W0 : (⟨2, ![C1, C0]⟩ : Shape).Idx → EReal) (b0 : (⟨1, ![C1]⟩ : Shape).Idx → EReal)
    (W1 : (⟨2, ![C2, C1]⟩ : Shape).Idx → EReal) (b1 : (⟨1, ![C2]⟩ : Shape).Idx → EReal)
    (W2 : (⟨2, ![C3, C2]⟩ : Shape).Idx → EReal) (b2 : (⟨1, ![C3]⟩ : Shape).Idx → EReal) :
    (⟨2, ![N, C3]⟩ : Shape).Idx → EReal :=
  fun i => mlpRow (fun k j => W0 (ix2 j k)) (fun j => b0 (ix1 j)) (fun k j => W1 (ix2 j k)) (fun j => b1 (ix1 j))
    (fun k j => W2 (ix2 j k)) (fun j => b2 (ix1 j)) (fun k => x (ix2 (i 0) k)) (i 1)

theorem mlp_apply {N C0 C1 C2 C3 : ℕ} (x : (⟨2, ![N, C0]⟩ : Shape).Idx → EReal)
    (W0 : (⟨2, ![C1, C0]⟩ : Shape).Idx → EReal) (b0 : (⟨1, ![C1]⟩ : Shape).Idx → EReal)
    (W1 : (⟨2, ![C2, C1]⟩ : Shape).Idx → EReal) (b1 : (⟨1, ![C2]⟩ : Shape).Idx → EReal)
    (W2 : (⟨2, ![C3, C2]⟩ : Shape).Idx → EReal) (b2 : (⟨1, ![C3]⟩ : Shape).Idx → EReal) (n : Fin N) (o : Fin C3) :
    mlp x W0 b0 W1 b1 W2 b2 (ix2 n o)
      = mlpRow (fun k j => W0 (ix2 j k)) (fun j => b0 (ix1 j)) (fun k j => W1 (ix2 j k)) (fun j => b1 (ix1 j))
          (fun k j => W2 (ix2 j k)) (fun j => b2 (ix1 j)) (fun k => x (ix2 n k)) o := rfl

end Cert.MlpSpec

end
-- ==== Proof.KernelValue.lean ====
/-
  The kernel's result as a function of its arguments.

  After the region the program reshapes the `500000 × 64` packed result in row-major order to `1000000 × 32`: row
  `2 p + s`, entry `o` is packed row `p`, half `s`, entry `o`. The packed result is the packed perceptron of the arrays the
  region found (block-diagonal matrices, doubled biases, the operand's rows packed in pairs), and a perceptron with
  block-diagonal matrices and doubled biases acts on each half of a packed row as the perceptron of the diagonal blocks:
  so entry `(2 p + s, o)` of the result is the perceptron of the program's own weights and biases on row `2 p + s` of
  its operand — the specification `mlp`. Every row number is `2 p + s` for one packed row and one half, so the two arrays
  are equal. The run itself, with the nine argument arrays unchanged, is the generated frame run.
-/
import proofs.«151276_j44693429682815_2_alg».proof.Proof.KernelBlocks
import proofs.«151276_j44693429682815_2_alg».proof.Proof.KernelHost
import proofs.«151276_j44693429682815_2_alg».proof.Proof.MlpSpec
import Idealize.ShloMosaic.Lib.StableHlo.Run

noncomputable section

namespace Cert.KernelIdeal.Result

open Idealize.ShloMosaic Idealize.ShloMosaic.TcCoe Idealize.ShloMosaic.ValueIdx Idealize.SL.Sem
open Idealize.ShloMosaic.StableHlo
open Cert.KernelIdeal Cert.KernelIdeal.Gen Cert.KernelIdeal.Packed Cert.KernelIdeal.Host
open Cert.LibPackedPair Cert.MlpRows Cert.MlpSpec

variable (m : (ℓ : Loc nD τ sig) → Buf (Elt Ideal) ℓ) (ρ : Dev nD → PrngReg)

/-- The packed result reshaped back is the specification of the program's arguments. -/
theorem unpacked_eq (c : Dev nD) :
    shapeCast S1000000x32
        (packedOut (V m c main_v0) (V m c main_v6) (V m c main_v19) (V m c main_v12) (V m c main_v20) (V m c main_v18)
          (V m c main_v21)) shapeCasts_S500000x64_S1000000x32
      = mlp (m ((c : Thread nD τ).loc main_arg0)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  funext i
  obtain ⟨n, o, rfl⟩ : ∃ (n : Fin 1000000) (o : Fin 32), i = ix2 n o := ⟨i 0, i 1, eq_ix2 i⟩
  obtain ⟨p, s, rfl⟩ := exists_il h1M n
  rw [mlp_apply]
  refine (reshape_unpack h1M h64 _ _ p s o).trans ?_
  refine (mlpRow_blockdiag h128 h128 h128 h64 _ _ _ _ _ _ _ _ _ _ _ _
    (matrix0_entry m c) (bias0_entry m c) (matrix1_entry m c) (bias1_entry m c) (matrix2_entry m c) (bias2_entry m c)
    _ s o).trans ?_
  exact congrArg (fun h => mlpRow _ _ _ _ _ _ h o) (funext fun k => operand_entry m c p s k)

/-- What the program's result buffer holds after the lines that follow the region: the region's result array
    reshaped. -/
theorem tail_eq (c : Dev nD) :
    Pipeline.afterTail₀ cfgs (dats m) 0 (V0 m) [hostOps1] c main_v23
      = shapeCast S1000000x32 ((dats m 0 c).arrAt 7 cfg0.N) shapeCasts_S500000x64_S1000000x32 := by
  unfold Pipeline.afterTail₀
  show StableHlo.after hostOps1 _ (Proc.devRef .tc main_v23) = _
  after_results
  exact congrArg (fun a => shapeCast S1000000x32 a shapeCasts_S500000x64_S1000000x32)
    (Pipeline.withArrays_arr spec0 launch0.win.arr_inj c _ _ 7)

/-- THE RUN: every weakly fair execution terminates with the result at the specification of the arguments and the
    arguments unchanged. -/
theorem run : θ_run defs (onTc (τ := τ) (main (F := Ideal))) ⟨m, fun _ => 0, ρ⟩ fun r => ∀ c : Dev nD,
      r.2.mem ((c.tc : Thread nD τ).loc main_v23)
        = mlp (m ((c : Thread nD τ).loc main_arg0)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(((h c).2 main_v23 (Pipeline.mem_restRefs_of main_v23 (by decide) (by decide))).trans (tail_eq m c)).trans
        ((congrArg (fun a => shapeCast S1000000x32 a shapeCasts_S500000x64_S1000000x32) (final m c)).trans
          (unpacked_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.ReferenceSpec.lean ====
/-
  The reference computes the specification.

  The reference program is, three times over, a host product of the current array with the transpose of a weight matrix,
  plus the bias broadcast first to a row and then down the rows, the maximum with a broadcast zero after the first and the
  second. At the ideal values the host product is the plain sum over the contraction index, so at entry `(n, q)` each
  stage is one layer of the perceptron applied to row `n` of the previous stage; the three stages compose to `mlp`.
-/
import proofs.«151276_j44693429682815_2_alg».proof.Proof.Gen.ReferenceIdeal.Read
import proofs.«151276_j44693429682815_2_alg».proof.Proof.MlpSpec
import Idealize.ShloMosaic.PureOps.Ideal.Laws

noncomputable section

namespace Cert.ReferenceIdeal.Spec

open Idealize.ShloMosaic Idealize.ShloMosaic.ValueIdx
open Cert.ReferenceIdeal Cert.ReferenceIdeal.Read Cert.MlpRows Cert.MlpSpec

/-- The two broadcast zeros the maxima are taken with. -/
theorem zero0 (i : S1000000x64.Idx) : val_main_call0_v0 (F := Ideal) i = (0 : EReal) := by
  rw [val_main_call0_v0_apply, val_main_call0_cst_apply]
  exact Ideal.ofBits_zero_f32

theorem zero1 (i : S1000000x64.Idx) : val_main_call1_v0 (F := Ideal) i = (0 : EReal) := by
  rw [val_main_call1_v0_apply, val_main_call1_cst_apply]
  exact Ideal.ofBits_zero_f32

variable (x0 : S1000000x64.Idx → EReal) (x3 : S64x64.Idx → EReal) (x4 : S64.Idx → EReal) (x5 : S64x64.Idx → EReal)
  (x6 : S64.Idx → EReal) (x7 : S32x64.Idx → EReal) (x8 : S32.Idx → EReal)

/-- After the first stage, entry `(n, q)`: the positive part of the first layer on row `n` of `x`. -/
theorem stage0 (n : Fin 1000000) (q : Fin 64) :
    val_main_v5 (F := Ideal) x0 x3 x4 (ix2 n q)
      = relu (layer (fun k j => x3 (ix2 j k)) (fun j => x4 (ix1 j)) (fun k => x0 (ix2 n k))) q := by
  have e1 : ∀ k : Fin 64, lidx_main_v1 (ix2 n q) k = ix2 n k := fun k => funext fun a => by
    match a with
    | ⟨0, _⟩ => rfl
    | ⟨1, _⟩ => rfl
  have e2 : ∀ k : Fin 64, idx_main_v0 (ridx_main_v1 (ix2 n q) k) = ix2 q k := fun k => funext fun a => by
    match a with
    | ⟨0, _⟩ => rfl
    | ⟨1, _⟩ => rfl
  have e3 : idx_main_v2 (idx_main_v3 (ix2 n q)) = ix1 q := funext fun a => by
    match a with
    | ⟨0, _⟩ => rfl
  rw [val_main_v5_apply, val_main_v4_apply, val_main_v1_apply, val_main_v3_apply, val_main_v2_apply, zero0]
  simp only [val_main_v0_apply, e1, e2, e3]
  rfl

/-- After the second stage, entry `(n, q)`: the positive part of the second layer on row `n` of the first stage. -/
theorem stage1 (n : Fin 1000000) (q : Fin 64) :
    val_main_v11 (F := Ideal) x0 x3 x4 x5 x6 (ix2 n q)
      = relu (layer (fun k j => x5 (ix2 j k)) (fun j => x6 (ix1 j))
          (relu (layer (fun k j => x3 (ix2 j k)) (fun j => x4 (ix1 j)) (fun k => x0 (ix2 n k))))) q := by
  have e1 : ∀ k : Fin 64, lidx_main_v7 (ix2 n q) k = ix2 n k := fun k => funext fun a => by
    match a with
    | ⟨0, _⟩ => rfl
    | ⟨1, _⟩ => rfl
  have e2 : ∀ k : Fin 64, idx_main_v6 (ridx_main_v7 (ix2 n q) k) = ix2 q k := fun k => funext fun a => by
    match a with
    | ⟨0, _⟩ => rfl
    | ⟨1, _⟩ => rfl
  have e3 : idx_main_v8 (idx_main_v9 (ix2 n q)) = ix1 q := funext fun a => by
    match a with
    | ⟨0, _⟩ => rfl
  rw [val_main_v11_apply, val_main_v10_apply, val_main_v7_apply, val_main_v9_apply, val_main_v8_apply, zero1]
  simp only [val_main_v6_apply, e1, e2, e3, stage0]
  rfl

/-- The result, entry `(n, o)`: the third layer on row `n` of the second stage. -/
theorem stage2 (n : Fin 1000000) (o : Fin 32) :
    val_main_v16 (F := Ideal) x0 x3 x4 x5 x6 x7 x8 (ix2 n o)
      = layer (fun k j => x7 (ix2 j k)) (fun j => x8 (ix1 j))
          (relu (layer (fun k j => x5 (ix2 j k)) (fun j => x6 (ix1 j))
            (relu (layer (fun k j => x3 (ix2 j k)) (fun j => x4 (ix1 j)) (fun k => x0 (ix2 n k)))))) o := by
  have e1 : ∀ k : Fin 64, lidx_main_v13 (ix2 n o) k = ix2 n k := fun k => funext fun a => by
    match a with
    | ⟨0, _⟩ => rfl
    | ⟨1, _⟩ => rfl
  have e2 : ∀ k : Fin 64, idx_main_v12 (ridx_main_v13 (ix2 n o) k) = ix2 o k := fun k => funext fun a => by
    match a with
    | ⟨0, _⟩ => rfl
    | ⟨1, _⟩ => rfl
  have e3 : idx_main_v14 (idx_main_v15 (ix2 n o)) = ix1 o := funext fun a => by
    match a with
    | ⟨0, _⟩ => rfl
  rw [val_main_v16_apply, val_main_v13_apply, val_main_v15_apply, val_main_v14_apply]
  simp only [val_main_v12_apply, e1, e2, e3, stage1]
  rfl

/-- The reference's result array is the specification of its arguments. -/
theorem reference_eq : val_main_v16 (F := Ideal) x0 x3 x4 x5 x6 x7 x8 = mlp x0 x3 x4 x5 x6 x7 x8 := by
  funext i
  obtain ⟨n, o, rfl⟩ : ∃ (n : Fin 1000000) (o : Fin 32), i = ix2 n o := ⟨i 0, i 1, eq_ix2 i⟩
  exact stage2 x0 x3 x4 x5 x6 x7 x8 n o

end Cert.ReferenceIdeal.Spec

end
-- ==== Proof.lean ====
/-
  The kernel and its reference compute the same three-layer perceptron of every row of the operand.

  The reference: for an operand `x` (`1000000 × 64`), weights `W0`, `W1` (`64 × 64`), `W2` (`32 × 64`) and biases `b0`, `b1`,
  `b2`, the array `max (max (x · W0ᵀ + b0) 0 · W1ᵀ + b1) 0 · W2ᵀ + b2`; two further arguments (an edge list and its
  weights) are not read by either program.

  The kernel packs rows `2 p` and `2 p + 1` of the operand side by side into row `p` of a `500000 × 128` array, replaces each
  `Wᵀ` by the block-diagonal `[[Wᵀ, 0], [0, Wᵀ]]` and each bias by the bias joined with itself, runs the three layers on
  blocks of 5000 packed rows (the operands of each product narrowed to bf16, which at the ideal values changes nothing), and
  reshapes the `500000 × 64` result back to `1000000 × 32`.

  Why they agree on the extended reals: a sum over a packed row is the sum over its first half plus the sum over its
  second half; in the half that meets a zero block every term is `h * 0 = 0`, and `a + 0 = a`; both hold for every
  extended real, so no finiteness of the inputs is used. Hence each half of a packed row goes through the perceptron of
  the diagonal blocks, that is, of the program's own weights; half `s` of packed row `p` is row `2 p + s` of the
  operand on the way in and of the result on the way out.

  The modules: Proof/LibPackedPair.lean (packed rows: positions, sums, concatenations, reshapes), Proof/LibPlainDot.lean (a
  matrix product into a zero accumulator as a sum), Proof/MlpRows.lean (a layer, the perceptron, the block-diagonal law),
  Proof/MlpSpec.lean (the specification `mlp`), Proof/KernelRows.lean (the body's stored value at an entry),
  Proof/KernelBlocks.lean (from the grid points' blocks to the region's result array), Proof/KernelHost.lean (the arrays the
  region finds, at packed positions), Proof/KernelValue.lean (the kernel's run, its result at `mlp` of the arguments),
  Proof/ReferenceSpec.lean (the reference's result is `mlp` of its arguments). The three frames are the generated frame
  runs; the kernel's idealization rewrote nothing, so the fourth conjunct is `True`.
-/
import proofs.«151276_j44693429682815_2_alg».proof.Defs
import proofs.«151276_j44693429682815_2_alg».proof.Proof.Gen.Kernel
import proofs.«151276_j44693429682815_2_alg».proof.Proof.Gen.Kernel.Skeleton
import proofs.«151276_j44693429682815_2_alg».proof.Proof.Gen.Kernel.Launch
import proofs.«151276_j44693429682815_2_alg».proof.Proof.Gen.Kernel.Points
import proofs.«151276_j44693429682815_2_alg».proof.Proof.Gen.Kernel.Frame
import proofs.«151276_j44693429682815_2_alg».proof.Proof.Gen.KernelIdeal
import proofs.«151276_j44693429682815_2_alg».proof.Proof.Gen.KernelIdeal.Skeleton
import proofs.«151276_j44693429682815_2_alg».proof.Proof.Gen.KernelIdeal.Launch
import proofs.«151276_j44693429682815_2_alg».proof.Proof.Gen.KernelIdeal.Points
import proofs.«151276_j44693429682815_2_alg».proof.Proof.Gen.KernelIdeal.Frame
import proofs.«151276_j44693429682815_2_alg».proof.Proof.Gen.ReferenceIdeal
import proofs.«151276_j44693429682815_2_alg».proof.Proof.Gen.ReferenceIdeal.Run
import proofs.«151276_j44693429682815_2_alg».proof.Proof.Gen.ReferenceIdeal.Read
import proofs.«151276_j44693429682815_2_alg».proof.Proof.Gen.Pre_finite_inputs
import proofs.«151276_j44693429682815_2_alg».proof.Proof.KernelValue
import proofs.«151276_j44693429682815_2_alg».proof.Proof.ReferenceSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame run. -/
theorem frame_kernel : Cert.frame_Kernel := fun m ρ _ => Cert.Kernel.Gen.frame m ρ

/-- The idealized kernel runs and leaves its arguments unchanged: its generated frame run. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the arguments both programs end with the perceptron `mlp` of the arguments in their
    result arrays: the kernel by its run read back, the reference by its generated run and `reference_eq`. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v16_eq, Cert.ReferenceIdeal.Spec.reference_eq, e0, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
